-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S10066329 : Shape := ⟨1, ![10066329]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S10066329 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S10066329 : Shape := ⟨1, ![10066329]⟩
abbrev S_ : Shape := ⟨0, ![]⟩
abbrev S33554432 : Shape := ⟨1, ![33554432]⟩
abbrev S10066329x1 : Shape := ⟨2, ![10066329, 1]⟩
abbrev S256x4096 : Shape := ⟨2, ![256, 4096]⟩

abbrev nBuf : Space → Nat
  | .hbm => 17
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S10066329, .i32⟩
  | .hbm, ⟨2, _⟩ => ⟨S_, .bf16⟩
  | .hbm, ⟨3, _⟩ => ⟨S33554432, .bf16⟩
  | .hbm, ⟨4, _⟩ => ⟨S_, .i32⟩
  | .hbm, ⟨5, _⟩ => ⟨S10066329, .i32⟩
  | .hbm, ⟨6, _⟩ => ⟨S10066329, .i1⟩
  | .hbm, ⟨7, _⟩ => ⟨S_, .i32⟩
  | .hbm, ⟨8, _⟩ => ⟨S10066329, .i32⟩
  | .hbm, ⟨9, _⟩ => ⟨S10066329, .i32⟩
  | .hbm, ⟨10, _⟩ => ⟨S10066329, .i32⟩
  | .hbm, ⟨11, _⟩ => ⟨S10066329x1, .i32⟩
  | .hbm, ⟨12, _⟩ => ⟨S_, .bf16⟩
  | .hbm, ⟨13, _⟩ => ⟨S10066329, .bf16⟩
  | .hbm, ⟨14, _⟩ => ⟨S33554432, .bf16⟩
  | .hbm, ⟨15, _⟩ => ⟨S8192x4096, .bf16⟩
  | .hbm, ⟨16, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S33554432 : S_.BroadcastsInDim S33554432 (![] : Fin 0 → Fin S33554432.rank)
  bcast_S_S10066329 : S_.BroadcastsInDim S10066329 (![] : Fin 0 → Fin S10066329.rank)
  bcast_S10066329_S10066329x1_0 : S10066329.BroadcastsInDim S10066329x1 (![0] : Fin 1 → Fin S10066329x1.rank)
  shapeCasts_S33554432_S8192x4096 : S33554432.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  scatter_S33554432_S10066329x1_S10066329_n_0_0_1_wf : ScatterDims.WF S33554432 S10066329x1 S10066329 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

def scatter_S33554432_S10066329x1_S10066329_n_0_0_1 : ScatterDims S33554432 S10066329x1 S10066329 where
  updateWindowDims := []
  insertedWindowDims := [0]
  scatterDimsToOperandDims := [0]
  indexVectorDim := 1
  wf := scatter_S33554432_S10066329x1_S10066329_n_0_0_1_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S10066329 : Shape := ⟨1, ![10066329]⟩
abbrev S33554432 : Shape := ⟨1, ![33554432]⟩
abbrev S_ : Shape := ⟨0, ![]⟩
abbrev S10066329x1 : Shape := ⟨2, ![10066329, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S10066329, .i32⟩
  | .hbm, ⟨2, _⟩ => ⟨S33554432, .f32⟩
  | .hbm, ⟨3, _⟩ => ⟨S_, .i32⟩
  | .hbm, ⟨4, _⟩ => ⟨S10066329, .i32⟩
  | .hbm, ⟨5, _⟩ => ⟨S10066329, .i1⟩
  | .hbm, ⟨6, _⟩ => ⟨S_, .i32⟩
  | .hbm, ⟨7, _⟩ => ⟨S10066329, .i32⟩
  | .hbm, ⟨8, _⟩ => ⟨S10066329, .i32⟩
  | .hbm, ⟨9, _⟩ => ⟨S10066329, .i32⟩
  | .hbm, ⟨10, _⟩ => ⟨S10066329x1, .i32⟩
  | .hbm, ⟨11, _⟩ => ⟨S_, .f32⟩
  | .hbm, ⟨12, _⟩ => ⟨S10066329, .f32⟩
  | .hbm, ⟨13, _⟩ => ⟨S33554432, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  shapeCasts_S8192x4096_S33554432 : S8192x4096.ShapeCasts S33554432
  bcast_S_S10066329 : S_.BroadcastsInDim S10066329 (![] : Fin 0 → Fin S10066329.rank)
  bcast_S10066329_S10066329x1_0 : S10066329.BroadcastsInDim S10066329x1 (![0] : Fin 1 → Fin S10066329x1.rank)
  shapeCasts_S33554432_S8192x4096 : S33554432.ShapeCasts S8192x4096
  scatter_S33554432_S10066329x1_S10066329_n_0_0_1_wf : ScatterDims.WF S33554432 S10066329x1 S10066329 [] [0] [0] 1

variable [Facts₀]

def scatter_S33554432_S10066329x1_S10066329_n_0_0_1 : ScatterDims S33554432 S10066329x1 S10066329 where
  updateWindowDims := []
  insertedWindowDims := [0]
  scatterDimsToOperandDims := [0]
  indexVectorDim := 1
  wf := scatter_S33554432_S10066329x1_S10066329_n_0_0_1_wf

class Facts : Prop extends Facts₀ where

variable [Facts]
-- ==== Proof.KernelBlocks.lean ====
/-
  From the kernel's blocks to its whole result array.

  The grid has 32 points; at point `t` each of the three windows holds rows `256 t … 256 t + 255`, all 4096 columns,
  of its array.  The body multiplies the two input blocks element by element (the change of float format in between is
  the identity on extended reals) and stores the product as the output block.  The three windows move together, so
  element `y` of the output block at `t` is the product of the two input ARRAYS at the same array index; and the 32
  row bands tile the 8192 rows, the band of row `r` being `r / 256`.  Hence the result array is the element-by-element
  product of the two arrays the region was entered with.
-/
import proofs.«170335_j16587163697257_1_alg».proof.Proof.Gen.KernelIdeal.Value
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The product of two extended reals (every float element is one, whatever its format). -/
abbrev emul (a b : EReal) : EReal := a * b

/-- The element-by-element product of the first window's array and the second window's array, as the region finds
    them. -/
abbrev prodArr (c : Dev nD) : S8192x4096.Idx → Elt Ideal .f32 :=
  fun i => emul (V m c main_arg0 i) (V m c main_v9 i)

/-- What the body leaves in the output block, for any two input blocks: their product, element by element. -/
theorem body_block (P0 : Vec Ideal S256x4096 .f32) (P1 : Vec Ideal S256x4096 .bf16) (y : S256x4096.Idx) :
    out0_2 P0 P1 y = emul (P0 y) (P1 y) := by
  unfold out0_2
  rw [Value.canon2_eq]
  simp only [View.ld_unit_zero (S := S256x4096) origin]
  have e0 : Value.ix2_0 y = y := by
    funext a
    match a with
    | ⟨0, _⟩ => rfl
    | ⟨1, _⟩ => rfl
  have e1 : Value.ix2_1 y = y := by
    funext a
    match a with
    | ⟨0, _⟩ => rfl
    | ⟨1, _⟩ => rfl
  show FloatOps.mulf (F := Ideal) (P0 (Value.ix2_0 y)) (FloatOps.extf (F := Ideal) .f32 bitsLt_bf16_f32 (P1 (Value.ix2_1 y))) = _
  rw [e0, e1]
  rfl

/-- The three windows' block indices agree at every grid point, the row band is one of the 32, the column band the
    only one (decided over the grid). -/
theorem bands : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every row band is some point's. -/
theorem band_onto : ∀ q : Fin 32, ∃ t : Fin cfg0.N, win0_2.index t = ![q.val, 0] :=
  (by decide +kernel : ∀ q : Fin 32, ∃ t : Fin grid0.N, win0_2.index t = ![q.val, 0])

/-- Reading two arrays through the first two windows' blocks at point `t` and multiplying is reading their product
    through the output window's block at `t`: the three blocks are the same rows of their arrays. Stated for ANY two
    arrays. -/
theorem read_prod (c : Dev nD) (A0 : Buf (Elt Ideal) ((c : Thread nD τ).loc main_arg0))
    (A1 : Buf (Elt Ideal) ((c : Thread nD τ).loc main_v9)) (t : Fin cfg0.N) :
    (cfg0.win 2).cut (grid0.coords t)
        (fun y => emul (((cfg0.win 0).blk t).view.read (Elt Ideal) A0 y) (((cfg0.win 1).blk t).view.read (Elt Ideal) A1 y))
      = ((cfg0.win 2).blk t).view.read (Elt Ideal) (fun i => emul (A0 i) (A1 i)) := by
  obtain ⟨e0, e1, e2, e3⟩ := bands t
  funext j
  show emul (A0 (((cfg0.win 0).blk t).view.emb j)) (A1 (((cfg0.win 1).blk t).view.emb j))
    = emul (A0 (((cfg0.win 2).blk t).view.emb j)) (A1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- The first window's block is the first argument's array read through the window. -/
theorem iblk0 (c : Dev nD) (t : Fin cfg0.N) :
    iblk m c 0 t = ((cfg0.win 0).blk t).view.read (Elt Ideal) (V m c main_arg0) := rfl

/-- The second window's block is the mask array read through the window. -/
theorem iblk1 (c : Dev nD) (t : Fin cfg0.N) :
    iblk m c 1 t = ((cfg0.win 1).blk t).view.read (Elt Ideal) (V m c main_v9) := rfl

/-- WHAT POINT `t` WRITES BACK is block `t` of the product array. -/
theorem flushed_eq (c : Dev nD) (t : Fin cfg0.N) :
    (dats m 0 c).flushed 2 t = ((cfg0.win 2).blk t).view.read (Elt Ideal) (prodArr m c) := by
  rw [Value.flushed2]
  have hb : out0_2 (iblk m c 0 t) (iblk m c 1 t) = fun y => emul (iblk m c 0 t y) (iblk m c 1 t y) :=
    funext fun y => body_block (iblk m c 0 t) (iblk m c 1 t) y
  rw [hb, iblk0, iblk1]
  exact read_prod c (V m c main_arg0) (V m c main_v9) t

/-- An array index is in point `t`'s output block iff each coordinate is in the block's range on its axis. -/
theorem mem_blk (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v10).slice (win0_2.rect t)).set ↔ _
  rw [View.set_slice_whole, Rect.mem_set_unit]
  exact Iff.rfl

/-- The 32 output blocks cover the array: row `r` lies in band `r / 256`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := band_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- THE RESULT ARRAY after the run is the product array. -/
theorem final (c : Dev nD) : (dats m 0 c).arrAt 2 cfg0.N = prodArr m c :=
  (dats m 0 c).arrAt_eq_of_cover 2 (prodArr m c) (fun t _ => flushed_eq m c t) cover

/-- The run, with the result array named: the product of the two arrays the region was entered with; the arguments
    unchanged. -/
theorem run : θ_run defs (onTc (τ := τ) (main (F := Ideal))) ⟨m, fun _ => 0, ρ⟩ fun r => ∀ c : Dev nD,
      r.2.mem ((c : Thread nD τ).loc main_v10) = prodArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.LibScatterLockstep.lean ====
/-
  Two scatters that differ only in what they carry.

  A scatter walks the update positions in one fixed order; at each position it decides FROM THE INDEX ARRAY ALONE
  whether the update lands inside the operand and at which element, and then replaces that one element by the body's
  value.  So two scatters with the same dimension numbers and the same index array take the same walk and touch the
  same elements in the same order, whatever their operands, updates and bodies are.  Hence any relation between the two
  running results that holds element by element at the start, and that one body step keeps at the element it touches,
  holds element by element at the end (`scatter_lockstep`) — duplicate indices and dropped (out-of-range) indices
  included, since both walks repeat or drop together.

  The instance used for a dropout mask: writing `0` at the chosen positions of `x` is the same as multiplying `x` by
  the array that is `1` everywhere and gets `0` written at the chosen positions (`scatter_zero_eq_mul_mask`), in any
  structure where `a * 1 = a` and `a * 0 = 0` — on the extended reals this needs no finiteness.
-/
import Idealize.ShloMosaic.PureOps

namespace Cert.LibScatterLockstep

open Idealize.ShloMosaic

variable {s si u : Shape} {w : Nat}

/-- Two scatters over the same dimension numbers `d` and the same index array `idx`: if `R i` relates the operands at
    every element `i`, and one body step keeps `R i` (for every update position `j`), then `R i` relates the results at
    every element. -/
theorem scatter_lockstep {α β : Type} (R : s.Idx → α → β → Prop) (d : ScatterDims s si u)
    (f : α → α → α) (g : β → β → β) (x : s.Idx → α) (y : s.Idx → β) (idx : IVec si w)
    (upd : u.Idx → α) (upd' : u.Idx → β)
    (h0 : ∀ i, R i (x i) (y i))
    (hstep : ∀ i a b j, R i a b → R i (f a (upd j)) (g b (upd' j))) :
    ∀ i, R i (Host.scatter d f x idx upd i) (Host.scatter d g y idx upd' i) := by
  unfold Host.scatter
  generalize List.finRange u.numel = L
  induction L generalizing x y with
  | nil => exact h0
  | cons n L ih =>
    rw [List.foldl_cons, List.foldl_cons]
    apply ih
    cases d.resultIdx? (u.rowMajor.symm n) idx with
    | none => exact h0
    | some i0 =>
      intro i
      show R i (if i = i0 then f (x i0) (upd (u.rowMajor.symm n)) else x i)
        (if i = i0 then g (y i0) (upd' (u.rowMajor.symm n)) else y i)
      by_cases h : i = i0
      · subst h
        rw [if_pos rfl, if_pos rfl]
        exact hstep i _ _ _ (h0 i)
      · rw [if_neg h, if_neg h]
        exact h0 i

/-- Writing `0` at the scattered positions of `x` is multiplying `x`, element by element, by the keep-mask: the
    all-ones array with `0` written at the same positions.  (`fun _ b => b` is the body of a scatter that SETS.) -/
theorem scatter_zero_eq_mul_mask {α : Type} [MulZeroOneClass α] (d : ScatterDims s si u)
    (x : s.Idx → α) (idx : IVec si w) (i : s.Idx) :
    Host.scatter d (fun _ b => b) x idx (fun _ => (0 : α)) i
      = x i * Host.scatter d (fun _ b => b) (fun _ => (1 : α)) idx (fun _ => (0 : α)) i :=
  scatter_lockstep (fun i a b => a = x i * b) d _ _ x (fun _ => 1) idx _ _
    (fun i => (mul_one (x i)).symm) (fun i _ _ _ _ => (mul_zero (x i)).symm) i

end Cert.LibScatterLockstep
-- ==== Proof.DropoutSpec.lean ====
/-
  What both programs compute: dropout by a list of flat positions.

  `X` is an 8192 × 4096 array and `J` a column of 10066329 signed positions into its 33554432 row-major elements.
  The result keeps `X` everywhere except at the positions `J` names, where it is `0`; a position outside
  `[0, 33554432)` names nothing, and a position named twice is simply zeroed twice.

  Stated as ONE function: `dropped d pos X J i = X i * keep d J (pos i)`, where `keep d J` is the array that starts
  as all ones and has `0` written at the positions `J` names (by the same scatter, with the same dimension numbers
  `d`), and `pos` sends an element of `X` to its flat position.  One program builds `keep` and multiplies; the other
  writes `0` into the flattened `X` directly.  The two agree element by element (`set_zero_eq_dropped`), because both
  scatters visit the same positions in the same order and `x * 1 = x`, `x * 0 = 0` for EVERY extended real `x`, the
  infinities included: no finiteness is used.
-/
import Idealize.ShloMosaic.PureOps.Ideal
import proofs.«170335_j16587163697257_1_alg».proof.Proof.LibScatterLockstep

noncomputable section

namespace Cert.Dropout

open Idealize.ShloMosaic

/-- The row-major position of element `(r, c)` of an 8192 × 4096 array among its 33554432 elements: `4096 r + c`. -/
abbrev flat (i : (⟨2, ![8192, 4096]⟩ : Shape).Idx) : (⟨1, ![33554432]⟩ : Shape).Idx := fun a => match a with
  | ⟨0, _⟩ => ⟨(i 0).val * 4096 + (i 1).val, by
      have h0 : (i 0).val < 8192 := (i 0).isLt
      have h1 : (i 1).val < 4096 := (i 1).isLt
      show (i 0).val * 4096 + (i 1).val < 33554432
      omega⟩

variable {sf si su : Shape}

/-- The keep-mask: all ones, with `0` written at every position the index array `J` names. -/
def keep (d : ScatterDims sf si su) (J : IVec si 32) : sf.Idx → EReal :=
  Host.scatter d (fun _ b => b) (fun _ => (1 : EReal)) J (fun _ => (0 : EReal))

/-- Dropout: `X` times the keep-mask at the element's flat position `pos i`. -/
def dropped {sm : Shape} (d : ScatterDims sf si su) (pos : sm.Idx → sf.Idx) (X : sm.Idx → EReal) (J : IVec si 32) :
    sm.Idx → EReal :=
  fun i => X i * keep d J (pos i)

/-- Writing `0` at the named positions of the flattened array `Xf` (which holds `X i` at position `pos i`), read back
    at `pos i`, is `dropped`: zeroing by a scatter is multiplying by the scattered keep-mask. -/
theorem set_zero_eq_dropped {sm : Shape} (d : ScatterDims sf si su) (pos : sm.Idx → sf.Idx) (X : sm.Idx → EReal)
    (Xf : sf.Idx → EReal) (J : IVec si 32) (hXf : ∀ i, Xf (pos i) = X i) (i : sm.Idx) :
    Host.scatter d (fun _ b => b) Xf J (fun _ => (0 : EReal)) (pos i) = dropped d pos X J i := by
  rw [LibScatterLockstep.scatter_zero_eq_mul_mask, hXf]
  rfl

end Cert.Dropout

end
-- ==== Proof.KernelMask.lean ====
/-
  The second window's array as the region finds it: the keep-mask, folded to 8192 × 4096.

  Before the region, the program builds an all-ones flat array of 33554432 elements, writes `0` into it at the positions
  the index argument names (negative entries first wrapped round by adding 33554432), and reshapes it to 8192 × 4096.
  So element `(r, c)` of that array is `Dropout.keep` at flat position `4096 r + c`.
-/
import proofs.«170335_j16587163697257_1_alg».proof.Proof.Gen.KernelIdeal.Frame
import proofs.«170335_j16587163697257_1_alg».proof.Proof.DropoutSpec
import Idealize.ShloMosaic.Lib.StableHlo.Run
import Idealize.ShloMosaic.Lib.Pipeline.Value
import Idealize.ShloMosaic.Lib.IdealHost

noncomputable section

namespace Cert.KernelIdeal.Mask

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The scatter's start positions: the index argument, an entry below zero replaced by itself plus 33554432, as a
    column. -/
def picks (x1 : IVec S10066329 32) : IVec S10066329x1 32 :=
  broadcastInDim S10066329x1 ![0] bcast_S10066329_S10066329x1_0
    (select (cmpi .slt x1 (broadcastInDim S10066329 ![] bcast_S_S10066329 (constantI S_ 32 0#32)))
      (addi x1 (broadcastInDim S10066329 ![] bcast_S_S10066329 (constantI S_ 32 33554432#32))) x1)

/-- The array the second window stages, as the operations before the region leave it. -/
theorem mask_array (c : Dev nD) :
    (V m c main_v9 : S8192x4096.Idx → EReal) =
      shapeCast S8192x4096 (Host.scatter scatter_S33554432_S10066329x1_S10066329_n_0_0_1 (fun _ b => b)
        (broadcastInDim S33554432 ![] bcast_S_S33554432 (constant (F := Ideal) S_ .bf16 0x3F80#16))
        (picks (m ((c : Thread nD τ).loc main_arg1)))
        (broadcastInDim S10066329 ![] bcast_S_S10066329 (constant (F := Ideal) S_ .bf16 0x0000#16)))
        shapeCasts_S33554432_S8192x4096 := by
  dsimp only [Gen.V, Gen.hostOps0]
  after_results
  rfl

/-- The scattered operand is all ones. -/
theorem ones : (broadcastInDim S33554432 ![] bcast_S_S33554432 (constant (F := Ideal) S_ .bf16 0x3F80#16)
    : S33554432.Idx → EReal) = fun _ => (1 : EReal) := by
  funext j
  rw [ValueIdx.broadcastInDim_scalar_apply]
  exact Ideal.ofBits_one_bf16

/-- The scattered updates are all zeros. -/
theorem zeros : (broadcastInDim S10066329 ![] bcast_S_S10066329 (constant (F := Ideal) S_ .bf16 0x0000#16)
    : S10066329.Idx → EReal) = fun _ => (0 : EReal) := by
  funext j
  rw [ValueIdx.broadcastInDim_scalar_apply]
  exact Ideal.ofBits_zero_bf16

/-- Element `(r, c)` of the staged mask is the keep-mask at flat position `4096 r + c`. -/
theorem mask_apply (c : Dev nD) (i : S8192x4096.Idx) :
    (V m c main_v9 : S8192x4096.Idx → EReal) i
      = Dropout.keep scatter_S33554432_S10066329x1_S10066329_n_0_0_1 (picks (m ((c : Thread nD τ).loc main_arg1))) (Dropout.flat i) := by
  rw [mask_array]
  refine (shapeCast_apply _ shapeCasts_S33554432_S8192x4096 i (Dropout.flat i) (by
    rewrite [Shape.rowMajor_val_one, Shape.rowMajor_val_two]
    have h0 : (i 0).val < 8192 := (i 0).isLt
    have h1 : (i 1).val < 4096 := (i 1).isLt
    show (i 0).val * 4096 + (i 1).val = (i 0).val * 4096 + (i 1).val
    omega)).trans ?_
  rw [ones, zeros]
  rfl

end Cert.KernelIdeal.Mask

end
-- ==== Proof.KernelValue.lean ====
/-
  The kernel's result is dropout of its arguments.

  The result array is the element-by-element product of the two arrays the region was entered with (the blocks module).
  The first is the argument `X` untouched; the second, at element `(r, c)`, is the keep-mask at flat position
  `4096 r + c` (the mask module).  Their product is `Dropout.dropped`.
-/
import proofs.«170335_j16587163697257_1_alg».proof.Proof.KernelBlocks
import proofs.«170335_j16587163697257_1_alg».proof.Proof.KernelMask

noncomputable section

namespace Cert.KernelIdeal.KerValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The product array is `X` times the keep-mask of the wrapped index argument. -/
theorem prod_eq (c : Dev nD) :
    Blocks.prodArr m c
      = Dropout.dropped scatter_S33554432_S10066329x1_S10066329_n_0_0_1 Dropout.flat
          (m ((c : Thread nD τ).loc main_arg0)) (Mask.picks (m ((c : Thread nD τ).loc main_arg1))) := by
  funext i
  show Blocks.emul (V m c main_arg0 i) (V m c main_v9 i)
    = Blocks.emul (m ((c : Thread nD τ).loc main_arg0) i)
        (Dropout.keep scatter_S33554432_S10066329x1_S10066329_n_0_0_1 (Mask.picks (m ((c : Thread nD τ).loc main_arg1))) (Dropout.flat i))
  rw [Mask.mask_apply, V_main_arg0]

/-- The kernel's run: the result array ends at dropout of the arguments; the arguments end unchanged. -/
theorem run : θ_run defs (onTc (τ := τ) (main (F := Ideal))) ⟨m, fun _ => 0, ρ⟩ fun r => ∀ c : Dev nD,
      r.2.mem ((c : Thread nD τ).loc main_v10)
        = Dropout.dropped scatter_S33554432_S10066329x1_S10066329_n_0_0_1 Dropout.flat
            (m ((c : Thread nD τ).loc main_arg0)) (Mask.picks (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (prod_eq m c), (h c).2⟩) (Blocks.run m ρ)

end Cert.KernelIdeal.KerValue

end
-- ==== Proof.ReferenceValue.lean ====
/-
  The reference, read at an element: it flattens `X`, writes `0` at the named flat positions, and folds the result
  back to 8192 × 4096.  Element `(r, c)` of the result is element `4096 r + c` of the scattered flat array, whose
  operand there is `X (r, c)` again (`(4096 r + c) / 4096 = r`, `(4096 r + c) % 4096 = c`); the updates are the
  constant `0`.  So the reference is `Dropout.dropped` of its arguments.
-/
import proofs.«170335_j16587163697257_1_alg».proof.Proof.Gen.ReferenceIdeal.Read
import proofs.«170335_j16587163697257_1_alg».proof.Proof.DropoutSpec
import Idealize.ShloMosaic.PureOps.Ideal.Laws

noncomputable section

namespace Cert.ReferenceIdeal.RefValue

open Cert.ReferenceIdeal Cert.ReferenceIdeal.Gen Idealize.ShloMosaic

/-- The updates the reference scatters are all `0`. -/
theorem updates_zero : (Read.val_main_v7 (F := Ideal) : S10066329.Idx → EReal) = fun _ => (0 : EReal) := by
  funext j
  rw [Read.val_main_v7_apply, Read.val_main_cst_apply]
  exact Ideal.ofBits_zero_f32

/-- Where the final reshape reads the scattered flat array: the row-major position. -/
theorem read_pos (i : S8192x4096.Idx) : Read.idx_main_v9 i = Dropout.flat i := by
  funext a
  match a with
  | ⟨0, _⟩ => rfl

/-- The flattened `X` holds `X (r, c)` at position `4096 r + c`. -/
theorem flat_operand (x0 : S8192x4096.Idx → EReal) (i : S8192x4096.Idx) :
    Read.val_main_v0 (F := Ideal) x0 (Dropout.flat i) = x0 i := by
  rw [Read.val_main_v0_apply]
  refine congrArg x0 ?_
  have h0 : (i 0).val < 8192 := (i 0).isLt
  have h1 : (i 1).val < 4096 := (i 1).isLt
  funext a
  apply Fin.ext
  match a with
  | ⟨0, _⟩ => show ((i 0).val * 4096 + (i 1).val) / 4096 = (i 0).val; omega
  | ⟨1, _⟩ => show ((i 0).val * 4096 + (i 1).val) % 4096 = (i 1).val; omega

/-- THE REFERENCE IS DROPOUT of its two arguments (the index argument through its own wrap-round of negative entries,
    `Read.val_main_v6`). -/
theorem ref_eq (x0 : S8192x4096.Idx → EReal) (x1 : IVec S10066329 32) :
    Read.val_main_v9 (F := Ideal) x0 x1
      = Dropout.dropped scatter_S33554432_S10066329x1_S10066329_n_0_0_1 Dropout.flat x0 (Read.val_main_v6 (F := Ideal) x1) := by
  funext i
  rw [Read.val_main_v9_apply, read_pos]
  unfold Read.val_main_v8
  rw [updates_zero]
  exact Dropout.set_zero_eq_dropped _ Dropout.flat x0 _ _ (flat_operand x0) i

end Cert.ReferenceIdeal.RefValue

end
-- ==== Proof.lean ====
/-
  Dropout by a list of flat positions: a kernel that multiplies `X` by a scattered keep-mask, against a reference that
  writes `0` into the flattened `X` at the same positions.

  Both programs first wrap the index argument (an entry below zero gets 33554432 added) and scatter with the same
  dimension numbers, so both name the same positions, in the same order; an entry still out of range names nothing in
  either.  The kernel scatters `0` into an all-ones array of 33554432 elements, folds it to 8192 × 4096, and its 32 grid
  points multiply `X` by it, 256 rows at a time.  The reference flattens `X`, scatters `0` into it, and folds it back.
  At element `(r, c)`, flat position `4096 r + c`, both give `X (r, c)` times the keep-mask there: two scatters over the
  same positions stay related step by step (`x = x * 1` before, `0 = x * 0` after a hit), for every extended real `x`,
  so the precondition's finiteness is never opened.

  The three frames are the generated ones (the reference's is its generated run with the result dropped); the
  idealization rewrote nothing, so `preserves` is `True`.
-/
import proofs.«170335_j16587163697257_1_alg».proof.Defs
import proofs.«170335_j16587163697257_1_alg».proof.Proof.Gen.Kernel
import proofs.«170335_j16587163697257_1_alg».proof.Proof.Gen.Kernel.Skeleton
import proofs.«170335_j16587163697257_1_alg».proof.Proof.Gen.Kernel.Launch
import proofs.«170335_j16587163697257_1_alg».proof.Proof.Gen.Kernel.Points
import proofs.«170335_j16587163697257_1_alg».proof.Proof.Gen.Kernel.Frame
import proofs.«170335_j16587163697257_1_alg».proof.Proof.Gen.KernelIdeal
import proofs.«170335_j16587163697257_1_alg».proof.Proof.Gen.KernelIdeal.Skeleton
import proofs.«170335_j16587163697257_1_alg».proof.Proof.Gen.KernelIdeal.Launch
import proofs.«170335_j16587163697257_1_alg».proof.Proof.Gen.KernelIdeal.Points
import proofs.«170335_j16587163697257_1_alg».proof.Proof.Gen.KernelIdeal.Frame
import proofs.«170335_j16587163697257_1_alg».proof.Proof.Gen.ReferenceIdeal
import proofs.«170335_j16587163697257_1_alg».proof.Proof.Gen.Pre_finite_inputs
import proofs.«170335_j16587163697257_1_alg».proof.Proof.Gen.KernelIdeal.Value
import proofs.«170335_j16587163697257_1_alg».proof.Proof.Gen.ReferenceIdeal.Run
import proofs.«170335_j16587163697257_1_alg».proof.Proof.Gen.ReferenceIdeal.Read
import proofs.«170335_j16587163697257_1_alg».proof.Proof.KernelValue
import proofs.«170335_j16587163697257_1_alg».proof.Proof.ReferenceValue
import Idealize.ShloMosaic.Adequacy
import Idealize.ShloMosaic.Init

noncomputable section

namespace Cert.Proof

open Idealize.ShloMosaic Idealize.SL.Sem

/-- Both programs wrap the index argument the same way: the two columns of start positions are one function of it. -/
theorem picks_eq (x1 : IVec Cert.KernelIdeal.S10066329 32) :
    Cert.KernelIdeal.Mask.picks x1 = Cert.ReferenceIdeal.Read.val_main_v6 (F := Ideal) x1 := rfl

/-- Both programs scatter with the same dimension numbers. -/
theorem dims_eq : Cert.KernelIdeal.scatter_S33554432_S10066329x1_S10066329_n_0_0_1
    = Cert.ReferenceIdeal.scatter_S33554432_S10066329x1_S10066329_n_0_0_1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at dropout of the (agreeing) arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v9 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [Cert.ReferenceIdeal.RefValue.ref_eq, (hagree c).1, (hagree c).2, ← picks_eq, ← dims_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
